-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1408x256 : Shape := ⟨2, ![1408, 256]⟩
abbrev S256 : Shape := ⟨1, ![256]⟩
abbrev S128x256 : Shape := ⟨2, ![128, 256]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S1408x256 : S_.BroadcastsInDim S1408x256 (![] : Fin 0 → Fin S1408x256.rank)
  reducesTo_S1408x256_S_d0_1 : S1408x256.ReducesTo [0, 1] S_
  h_S_ : 0 < S_.numel
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S128 .f32) (main_arg5 : FVec F S10x128 .f32) (main_arg6 : FVec F S10 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S10x128 .f32 := Host.absf main_arg5
  let main_cst_8 : FVec F S_ .f32 := constant S_ .f32 0x7F800000#32
  let main_v25 : FVec F S10x128 .f32 := broadcastInDim S10x128 ![] bcast_S_S10x128 main_cst_8
  let main_v26 : IVec S10x128 1 := cmpf .olt main_v24 main_v25
  let main_c_9 : IVec S_ 1 := constantI S_ 1 1#1
  let main_v27 : IVec S_ 1 := (fun x v => Host.reduce IntOp.andi x v reducesTo_S10x128_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S1408x256 .f32) (main_arg1 : FVec F S256 .f32) (main_arg2 : FVec F S256 .f32) (main_arg3 : FVec F S128x256 .f32) (main_arg4 : FVec F S128 .f32) (main_arg5 : FVec F S10x128 .f32) (main_arg6 : FVec F S10 .f32) : IVec S_ 1 :=
  let main_v0 : FVec F S1408x256 .f32 := Host.absf main_arg0
  let main_cst : FVec F S_ .f32 := constant S_ .f32 0x7F800000#32
  let main_v1 : FVec F S1408x256 .f32 := broadcastInDim S1408x256 ![] bcast_S_S1408x256 main_cst
  let main_v2 : IVec S1408x256 1 := cmpf .olt main_v0 main_v1
  let main_c : IVec S_ 1 := constantI S_ 1 1#1
  let main_v3 : IVec S_ 1 := (fun x v => Host.reduce IntOp.andi x v reducesTo_S1408x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S1408x256 : Shape := ⟨2, ![1408, 256]⟩
abbrev S256 : Shape := ⟨1, ![256]⟩
abbrev S128x256 : Shape := ⟨2, ![128, 256]⟩
abbrev S128 : Shape := ⟨1, ![128]⟩
abbrev S10x128 : Shape := ⟨2, ![10, 128]⟩
abbrev S10 : Shape := ⟨1, ![10]⟩
abbrev S1408x10 : Shape := ⟨2, ![1408, 10]⟩
abbrev S704x256 : Shape := ⟨2, ![704, 256]⟩
abbrev S704x10 : Shape := ⟨2, ![704, 10]⟩
abbrev S704 : Shape := ⟨1, ![704]⟩
abbrev S704x1 : Shape := ⟨2, ![704, 1]⟩
abbrev S1x256 : Shape := ⟨2, ![1, 256]⟩
abbrev S704x128 : Shape := ⟨2, ![704, 128]⟩
abbrev S1x128 : Shape := ⟨2, ![1, 128]⟩
abbrev S1x10 : Shape := ⟨2, ![1, 10]⟩
abbrev S32x4x11x10 : Shape := ⟨4, ![32, 4, 11, 10]⟩

abbrev nBuf : Space → Nat
  | .hbm => 11
  | .vmem => 10
  | .smem => 0
  | _ => 0

abbrev bufTy : (tb : Table) → Fin (tcTables nBuf tb) → BufTy
  | .hbm, ⟨0, _⟩ => ⟨S1408x256, .f32⟩
  | .hbm, ⟨1, _⟩ => ⟨S256, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S10x128, .f32⟩
  | .hbm, ⟨6, _⟩ => ⟨S10, .f32⟩
  | .hbm, ⟨7, _⟩ => ⟨S128x256, .bf16⟩
  | .hbm, ⟨8, _⟩ => ⟨S10x128, .bf16⟩
  | .hbm, ⟨9, _⟩ => ⟨S1408x10, .f32⟩
  | .hbm, ⟨10, _⟩ => ⟨S32x4x11x10, .f32⟩
  | .local _ .vmem, ⟨0, _⟩ => ⟨S704x256, .f32⟩
  | .local _ .vmem, ⟨1, _⟩ => ⟨S704x256, .f32⟩
  | .local _ .vmem, ⟨2, _⟩ => ⟨S256, .f32⟩
  | .local _ .vmem, ⟨3, _⟩ => ⟨S256, .f32⟩
  | .local _ .vmem, ⟨4, _⟩ => ⟨S128x256, .bf16⟩
  | .local _ .vmem, ⟨5, _⟩ => ⟨S128, .f32⟩
  | .local _ .vmem, ⟨6, _⟩ => ⟨S10x128, .bf16⟩
  | .local _ .vmem, ⟨7, _⟩ => ⟨S10, .f32⟩
  | .local _ .vmem, ⟨8, _⟩ => ⟨S704x10, .f32⟩
  | .local _ .vmem, ⟨9, _⟩ => ⟨S704x10, .f32⟩
  | _, _ => ⟨S1408x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S704x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  inb_S704x256_S704x256_0_0 : ∀ a, (![0, 0] : Fin 2 → Nat) a + S704x256.size a ≤ S704x256.size a
  h_S704x256 : 0 < S704x256.numel
  reduces_S704x256_S704 : S704x256.Reduces [1] S704
  shapeCasts_S704_S704x1 : S704.ShapeCasts S704x1
  broadcasts_S704x1_S704x256 : S704x1.Broadcasts S704x256
  inb_S256_S256_0 : ∀ a, (![0] : Fin 1 → Nat) a + S256.size a ≤ S256.size a
  h_S256 : 0 < S256.numel
  shapeCasts_S256_S1x256 : S256.ShapeCasts S1x256
  broadcasts_S1x256_S704x256 : S1x256.Broadcasts S704x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128_S128_0 : ∀ a, (![0] : Fin 1 → Nat) a + S128.size a ≤ S128.size a
  h_S128 : 0 < S128.numel
  shapeCasts_S128_S1x128 : S128.ShapeCasts S1x128
  broadcasts_S1x128_S704x128 : S1x128.Broadcasts S704x128
  inb_S10x128_S10x128_0_0 : ∀ a, (![0, 0] : Fin 2 → Nat) a + S10x128.size a ≤ S10x128.size a
  h_S10x128 : 0 < S10x128.numel
  shapeCasts_S10x128_S10x128 : S10x128.ShapeCasts S10x128
  inb_S10_S10_0 : ∀ a, (![0] : Fin 1 → Nat) a + S10.size a ≤ S10.size a
  h_S10 : 0 < S10.numel
  shapeCasts_S10_S1x10 : S10.ShapeCasts S1x10
  broadcasts_S1x10_S704x10 : S1x10.Broadcasts S704x10
  inb_S704x10_S704x10_0_0 : ∀ a, (![0, 0] : Fin 2 → Nat) a + S704x10.size a ≤ S704x10.size a
  h_S704x10 : 0 < S704x10.numel
  shapeCasts_S1408x10_S32x4x11x10 : S1408x10.ShapeCasts S32x4x11x10
  dot_S704x256_S128x256_S704x128_1_1_0_0_n_n_wf : DotDims.WF S704x256 S128x256 S704x128 [1] [1] [0] [0] [] []
  dot_S704x128_S10x128_S704x10_1_1_0_0_n_n_wf : DotDims.WF S704x128 S10x128 S704x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S704x256.size a ≤ S1408x256.size a
  hwx0_0 : ∀ i : grid0.Coords, EltTy.bits .f32 = 32 ∨ (Rect.block (s := S1408x256) S704x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S256.size a
  hwx0_1 : ∀ i : grid0.Coords, EltTy.bits .f32 = 32 ∨ (Rect.block (s := S256) S256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x128.size a ≤ S10x128.size a
  hwx0_5 : ∀ i : grid0.Coords, EltTy.bits .bf16 = 32 ∨ (Rect.block (s := S10x128) S10x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10.size a ≤ S10.size a
  hwx0_6 : ∀ i : grid0.Coords, EltTy.bits .f32 = 32 ∨ (Rect.block (s := S10) S10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S704x10.size a ≤ S1408x10.size a
  hwx0_7 : ∀ i : grid0.Coords, EltTy.bits .f32 = 32 ∨ (Rect.block (s := S1408x10) S704x10.size (cc0_transform_7 i) (hinb0_7 i)).WholeWords (EltTy.packing .f32)

variable [Facts₀]

def dot_S704x256_S128x256_S704x128_1_1_0_0_n_n : DotDims S704x256 S128x256 S704x128 where
  lhsContracting := [1]
  rhsContracting := [1]
  lhsNonContracting := [0]
  rhsNonContracting := [0]
  lhsBatch := []
  rhsBatch := []
  wf := dot_S704x256_S128x256_S704x128_1_1_0_0_n_n_wf
def dot_S704x128_S10x128_S704x10_1_1_0_0_n_n : DotDims S704x128 S10x128 S704x10 where
  lhsContracting := [1]
  rhsContracting := [1]
  lhsNonContracting := [0]
  rhsNonContracting := [0]
  lhsBatch := []
  rhsBatch := []
  wf := dot_S704x128_S10x128_S704x10_1_1_0_0_n_n_wf

abbrev win0_0 : Pipeline.Window sig grid0 :=
  Pipeline.Window.ofSpec (Memref.whole main_arg0) S704x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S10x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S704x10.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1408x256 : Shape := ⟨2, ![1408, 256]⟩
abbrev S256 : Shape := ⟨1, ![256]⟩
abbrev S128x256 : Shape := ⟨2, ![128, 256]⟩
abbrev S128 : Shape := ⟨1, ![128]⟩
abbrev S10x128 : Shape := ⟨2, ![10, 128]⟩
abbrev S10 : Shape := ⟨1, ![10]⟩
abbrev S32x4x11x256 : Shape := ⟨4, ![32, 4, 11, 256]⟩
abbrev S_ : Shape := ⟨0, ![]⟩
abbrev S32x4x11 : Shape := ⟨3, ![32, 4, 11]⟩
abbrev S32x4x11x1 : Shape := ⟨4, ![32, 4, 11, 1]⟩
abbrev S1x1x1x256 : Shape := ⟨4, ![1, 1, 1, 256]⟩
abbrev S32x4x11x128 : Shape := ⟨4, ![32, 4, 11, 128]⟩
abbrev S1x1x1x128 : Shape := ⟨4, ![1, 1, 1, 128]⟩
abbrev S32x4x11x10 : Shape := ⟨4, ![32, 4, 11, 10]⟩
abbrev S1x1x1x10 : Shape := ⟨4, ![1, 1, 1, 10]⟩

abbrev nBuf : Space → Nat
  | .hbm => 53
  | .vmem => 0
  | .smem => 0
  | _ => 0

abbrev bufTy : (tb : Table) → Fin (tcTables nBuf tb) → BufTy
  | .hbm, ⟨0, _⟩ => ⟨S1408x256, .f32⟩
  | .hbm, ⟨1, _⟩ => ⟨S256, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S10x128, .f32⟩
  | .hbm, ⟨6, _⟩ => ⟨S10, .f32⟩
  | .hbm, ⟨7, _⟩ => ⟨S32x4x11x256, .f32⟩
  | .hbm, ⟨8, _⟩ => ⟨S_, .f32⟩
  | .hbm, ⟨9, _⟩ => ⟨S32x4x11, .f32⟩
  | .hbm, ⟨10, _⟩ => ⟨S32x4x11x1, .f32⟩
  | .hbm, ⟨11, _⟩ => ⟨S_, .f32⟩
  | .hbm, ⟨12, _⟩ => ⟨S32x4x11x1, .f32⟩
  | .hbm, ⟨13, _⟩ => ⟨S32x4x11x1, .f32⟩
  | .hbm, ⟨14, _⟩ => ⟨S32x4x11x256, .f32⟩
  | .hbm, ⟨15, _⟩ => ⟨S32x4x11x256, .f32⟩
  | .hbm, ⟨16, _⟩ => ⟨S32x4x11x256, .f32⟩
  | .hbm, ⟨17, _⟩ => ⟨S_, .f32⟩
  | .hbm, ⟨18, _⟩ => ⟨S32x4x11, .f32⟩
  | .hbm, ⟨19, _⟩ => ⟨S32x4x11x1, .f32⟩
  | .hbm, ⟨20, _⟩ => ⟨S_, .f32⟩
  | .hbm, ⟨21, _⟩ => ⟨S32x4x11x1, .f32⟩
  | .hbm, ⟨22, _⟩ => ⟨S32x4x11x1, .f32⟩
  | .hbm, ⟨23, _⟩ => ⟨S32x4x11x256, .f32⟩
  | .hbm, ⟨24, _⟩ => ⟨S32x4x11x256, .f32⟩
  | .hbm, ⟨25, _⟩ => ⟨S_, .f32⟩
  | .hbm, ⟨26, _⟩ => ⟨S32x4x11x1, .f32⟩
  | .hbm, ⟨27, _⟩ => ⟨S32x4x11x1, .f32⟩
  | .hbm, ⟨28, _⟩ => ⟨S32x4x11x1, .f32⟩
  | .hbm, ⟨29, _⟩ => ⟨S32x4x11x256, .f32⟩
  | .hbm, ⟨30, _⟩ => ⟨S32x4x11x256, .f32⟩
  | .hbm, ⟨31, _⟩ => ⟨S1x1x1x256, .f32⟩
  | .hbm, ⟨32, _⟩ => ⟨S32x4x11x256, .f32⟩
  | .hbm, ⟨33, _⟩ => ⟨S32x4x11x256, .f32⟩
  | .hbm, ⟨34, _⟩ => ⟨S1x1x1x256, .f32⟩
  | .hbm, ⟨35, _⟩ => ⟨S32x4x11x256, .f32⟩
  | .hbm, ⟨36, _⟩ => ⟨S32x4x11x256, .f32⟩
  | .hbm, ⟨37, _⟩ => ⟨S32x4x11x128, .f32⟩
  | .hbm, ⟨38, _⟩ => ⟨S1x1x1x128, .f32⟩
  | .hbm, ⟨39, _⟩ => ⟨S32x4x11x128, .f32⟩
  | .hbm, ⟨40, _⟩ => ⟨S32x4x11x128, .f32⟩
  | .hbm, ⟨41, _⟩ => ⟨S32x4x11x128, .f32⟩
  | .hbm, ⟨42, _⟩ => ⟨S32x4x11x128, .f32⟩
  | .hbm, ⟨43, _⟩ => ⟨S_, .f32⟩
  | .hbm, ⟨44, _⟩ => ⟨S32x4x11x128, .f32⟩
  | .hbm, ⟨45, _⟩ => ⟨S32x4x11x128, .f32⟩
  | .hbm, ⟨46, _⟩ => ⟨S_, .f32⟩
  | .hbm, ⟨47, _⟩ => ⟨S32x4x11x128, .f32⟩
  | .hbm, ⟨48, _⟩ => ⟨S32x4x11x128, .f32⟩
  | .hbm, ⟨49, _⟩ => ⟨S32x4x11x10, .f32⟩
  | .hbm, ⟨50, _⟩ => ⟨S1x1x1x10, .f32⟩
  | .hbm, ⟨51, _⟩ => ⟨S32x4x11x10, .f32⟩
  | .hbm, ⟨52, _⟩ => ⟨S32x4x11x10, .f32⟩
  | _, _ => ⟨S1408x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  shapeCasts_S1408x256_S32x4x11x256 : S1408x256.ShapeCasts S32x4x11x256
  reducesTo_S32x4x11x256_S32x4x11_d3 : S32x4x11x256.ReducesTo [3] S32x4x11
  h_S_ : 0 < S_.numel
  bcast_S32x4x11_S32x4x11x1_0_1_2 : S32x4x11.BroadcastsInDim S32x4x11x1 (![0, 1, 2] : Fin 3 → Fin S32x4x11x1.rank)
  bcast_S_S32x4x11x1 : S_.BroadcastsInDim S32x4x11x1 (![] : Fin 0 → Fin S32x4x11x1.rank)
  bcast_S32x4x11x1_S32x4x11x256_0_1_2_3 : S32x4x11x1.BroadcastsInDim S32x4x11x256 (![0, 1, 2, 3] : Fin 4 → Fin S32x4x11x256.rank)
  bcast_S256_S1x1x1x256_3 : S256.BroadcastsInDim S1x1x1x256 (![3] : Fin 1 → Fin S1x1x1x256.rank)
  bcast_S1x1x1x256_S32x4x11x256_0_1_2_3 : S1x1x1x256.BroadcastsInDim S32x4x11x256 (![0, 1, 2, 3] : Fin 4 → Fin S32x4x11x256.rank)
  bcast_S128_S1x1x1x128_3 : S128.BroadcastsInDim S1x1x1x128 (![3] : Fin 1 → Fin S1x1x1x128.rank)
  bcast_S1x1x1x128_S32x4x11x128_0_1_2_3 : S1x1x1x128.BroadcastsInDim S32x4x11x128 (![0, 1, 2, 3] : Fin 4 → Fin S32x4x11x128.rank)
  bcast_S_S32x4x11x128 : S_.BroadcastsInDim S32x4x11x128 (![] : Fin 0 → Fin S32x4x11x128.rank)
  bcast_S10_S1x1x1x10_3 : S10.BroadcastsInDim S1x1x1x10 (![3] : Fin 1 → Fin S1x1x1x10.rank)
  bcast_S1x1x1x10_S32x4x11x10_0_1_2_3 : S1x1x1x10.BroadcastsInDim S32x4x11x10 (![0, 1, 2, 3] : Fin 4 → Fin S32x4x11x10.rank)
  dot_S32x4x11x256_S128x256_S32x4x11x128_3_1_012_0_n_n_wf : DotDims.WF S32x4x11x256 S128x256 S32x4x11x128 [3] [1] [0, 1, 2] [0] [] []
  dot_S32x4x11x128_S10x128_S32x4x11x10_3_1_012_0_n_n_wf : DotDims.WF S32x4x11x128 S10x128 S32x4x11x10 [3] [1] [0, 1, 2] [0] [] []

variable [Facts₀]

def dot_S32x4x11x256_S128x256_S32x4x11x128_3_1_012_0_n_n : DotDims S32x4x11x256 S128x256 S32x4x11x128 where
  lhsContracting := [3]
  rhsContracting := [1]
  lhsNonContracting := [0, 1, 2]
  rhsNonContracting := [0]
  lhsBatch := []
  rhsBatch := []
  wf := dot_S32x4x11x256_S128x256_S32x4x11x128_3_1_012_0_n_n_wf
def dot_S32x4x11x128_S10x128_S32x4x11x10_3_1_012_0_n_n : DotDims S32x4x11x128 S10x128 S32x4x11x10 where
  lhsContracting := [3]
  rhsContracting := [1]
  lhsNonContracting := [0, 1, 2]
  rhsNonContracting := [0]
  lhsBatch := []
  rhsBatch := []
  wf := dot_S32x4x11x128_S10x128_S32x4x11x10_3_1_012_0_n_n_wf

class Facts : Prop extends Facts₀ where

variable [Facts]
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«171777_j73315091742880_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.LibKernelOps.lean ====
/-
  An affine layer as the kernel spells it, read at an index at the ideal (extended real) values and generic in the extents.

  * matmulNT_bias_apply — an [M, K] array against an [N, K] array contracted over their second axes into the zero
                          accumulator, plus an [N] bias viewed as the one row [1, N] and broadcast over the M rows:
                          entry (e, o) is the sum over r of x (e, r) * y (o, r), plus b o;
  * rowBroadcast_apply  — an [N] array viewed as [1, N] and broadcast to [M, N] reads, at (e, o), the array at o.
-/
import Idealize.ShloMosaic.PureOps.Ideal.Laws
import Idealize.ShloMosaic.Lib.Pipeline.Value
import Idealize.ShloMosaic.Lib.ValueIdx
import Idealize.ShloMosaic.Lib.ValueLayout
import proofs.«171777_j73315091742880_2_alg».proof.Proof.LibRowReduceProducts

noncomputable section

open scoped BigOperators

namespace Cert.LibKernelOps

open Idealize.ShloMosaic Idealize.ShloMosaic.ValueIdx

/-- An [N] array viewed as the one row [1, N] and broadcast over M rows reads, at (e, o), the array at o. -/
theorem rowBroadcast_apply {α : Type} {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (e : Fin M) (o : Fin N) :
    broadcastTo ⟨2, ![M, N]⟩ (shapeCast ⟨2, ![1, N]⟩ b h1) h2 (ix2 e o) = b (ix1 o) :=
  (broadcastTo_1b_ab_apply (shapeCast ⟨2, ![1, N]⟩ b h1) h2 e o).trans (shapeCast_a_1a_apply b h1 0 o)

/-- The product with the transpose of the right operand into the zero accumulator, plus a bias row broadcast over
    the rows: entry (e, o) is the inner product of row e of the left operand with row o of the right one, plus b o. -/
theorem matmulNT_bias_apply {M K N : ℕ} {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (e : Fin M) (o : Fin N) :
    addf (FloatOps.matmul D prec x y (constant ⟨2, ![M, N]⟩ .f32 0x00000000#32))
        (broadcastTo ⟨2, ![M, N]⟩ (shapeCast ⟨2, ![1, N]⟩ b h1) h2) (ix2 e o)
      = (∑ r : Fin K, x (ix2 e r) * y (ix2 o r)) + b (ix1 o) := by
  refine (addf_apply _ _ _).trans ?_
  refine (congrArg (· + _) (Cert.LibRowReduceProducts.matmulNT D hlc hrc hln hrn hlb hrb prec x y e o)).trans ?_
  exact congrArg (_ + ·) (rowBroadcast_apply b h1 h2 e o)

end Cert.LibKernelOps

end
-- ==== Proof.LibKeepdimsCols.lean ====
/-
  Column vectors read at an index.

  A row reduction with `keepdims` leaves an `[a]` array that is then viewed as the column `[a, 1]` and broadcast along
  the rows of an `[a, b]` array. Read at an index:

  * an `[a]` array cast to `[a, 1]` reads, at `(p, u)`, the operand at `p` (`shapeCast_a_a1_apply`);
  * an `[a, 1]` column broadcast to `[a, b]` reads, at `(p, c)`, the column at `(p, 0)` (`broadcastTo_a1_ab_apply`).

  Both are generic in the extents and in the element type.
-/
import Idealize.ShloMosaic.Lib.Pipeline.Value
import Idealize.ShloMosaic.Lib.ValueIdx

namespace Cert.LibKeepdimsCols

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCols
-- ==== Proof.RowMap.lean ====
/-
  The map that both programs apply to each row of the [1408, 256] input, on the extended reals.

  For a row x of 256 features, a gain g and a shift s of 256 entries each, a weight matrix W of 128 rows of 256 with a
  bias u of 128 entries, and a weight matrix R of 10 rows of 128 with a bias v of 10 entries:

    mean x       = (sum over k of x k) / 256
    centred x k  = x k - mean x
    variance x   = (sum over k of (centred x k)^2) / 256
    normed k     = centred x k * rsqrt (variance x + eps) * g k + s k
    hiddenUnit f = logistic ((sum over k of normed k * W f k) + u f)
    readout c    = (sum over f of hiddenUnit f * R c f) + v c

  The divisor 256 and eps are the 32-bit words the two programs share; they are kept as words and never evaluated.
  The quotient, the reciprocal square root and the logistic function are the ones of the extended reals, so no
  entry is assumed finite anywhere.
-/
import Idealize.ShloMosaic.PureOps.Ideal
import Idealize.ShloMosaic.PureOps.Ideal.Laws

noncomputable section

open scoped BigOperators

namespace Cert.RowMap

open Idealize.ShloMosaic

/-- The word 0x43800000: the divisor 256 of both averages. -/
abbrev rowLen : EReal := Ideal.ofBits .f32 0x43800000#32
/-- The word 0x3727C5AC: the constant added to the variance before the reciprocal square root. -/
abbrev eps : EReal := Ideal.ofBits .f32 0x3727C5AC#32

/-- The average of a row. -/
def mean (x : Fin 256 → EReal) : EReal := Ideal.div (∑ k : Fin 256, x k) rowLen

/-- A row's entry less the row's average. -/
def centred (x : Fin 256 → EReal) (k : Fin 256) : EReal := x k - mean x

/-- The average of the squares of the centred entries. -/
def variance (x : Fin 256 → EReal) : EReal := Ideal.div (∑ k : Fin 256, centred x k * centred x k) rowLen

/-- The normalised row, scaled by the gain and moved by the shift. -/
def normed (x g s : Fin 256 → EReal) (k : Fin 256) : EReal :=
  centred x k * Ideal.rsqrt (variance x + eps) * g k + s k

/-- The sigmoid layer: unit f sees the inner product of the normalised row with row f of W, plus its bias. -/
def hiddenUnit (x g s : Fin 256 → EReal) (W : Fin 128 → Fin 256 → EReal) (u : Fin 128 → EReal) (f : Fin 128) : EReal :=
  Ideal.logistic ((∑ k : Fin 256, normed x g s k * W f k) + u f)

/-- The linear read-out: class c sees the inner product of the hidden units with row c of R, plus its bias. -/
def readout (x g s : Fin 256 → EReal) (W : Fin 128 → Fin 256 → EReal) (u : Fin 128 → EReal)
    (R : Fin 10 → Fin 128 → EReal) (v : Fin 10 → EReal) (c : Fin 10) : EReal :=
  (∑ f : Fin 128, hiddenUnit x g s W u f * R c f) + v c

/-- The read-out depends on its arguments entry by entry. -/
theorem readout_congr {x x' g g' s s' : Fin 256 → EReal} {W W' : Fin 128 → Fin 256 → EReal} {u u' : Fin 128 → EReal}
    {R R' : Fin 10 → Fin 128 → EReal} {v v' : Fin 10 → EReal} {c c' : Fin 10}
    (hx : ∀ k, x k = x' k) (hg : ∀ k, g k = g' k) (hs : ∀ k, s k = s' k) (hW : ∀ f k, W f k = W' f k)
    (hu : ∀ f, u f = u' f) (hR : ∀ c f, R c f = R' c f) (hv : ∀ c, v c = v' c) (hc : c = c') :
    readout x g s W u R v c = readout x' g' s' W' u' R' v' c' := by
  obtain rfl : x = x' := funext hx
  obtain rfl : g = g' := funext hg
  obtain rfl : s = s' := funext hs
  obtain rfl : W = W' := funext fun f => funext (hW f)
  obtain rfl : u = u' := funext hu
  obtain rfl : R = R' := funext fun c => funext (hR c)
  obtain rfl : v = v' := funext hv
  subst hc
  rfl

/-- The word 0x3F800000 (sign clear, exponent 127, fraction zero) is the real number 1. -/
theorem ofBits_f32_one : Ideal.ofBits .f32 0x3F800000#32 = (1 : EReal) := by
  simp [Ideal.ofBits, Ideal.ieee, -EReal.coe_mul]; norm_num

/-- The logistic function spelt out with the quotient and the exponential: 1 / (1 + e^(-z)), the two ones
    given as the word 0x3F800000. -/
theorem logistic_spelt (z : EReal) :
    Ideal.div (Ideal.ofBits .f32 0x3F800000#32) (Ideal.ofBits .f32 0x3F800000#32 + Ideal.exp (-z)) = Ideal.logistic z := by
  rw [ofBits_f32_one]; rfl

end Cert.RowMap

end
-- ==== Proof.KernelRows.lean ====
/-
  One block of the kernel, read entry by entry.

  The body loads a block of 704 rows of 256 features and the whole gain, shift, weights and biases, and stores a
  block of 704 rows of 10. Each intermediate array of the body is named below; read at an index, each is the
  corresponding quantity of RowMap for the block's row p:

    the column of row averages, at (p, 0)             : mean of row p
    the centred block, at (p, k)                      : centred entry k of row p
    the column of reciprocal deviations, at (p, 0)    : rsqrt (variance of row p + eps)
    the normalised block, at (p, k)                   : normed entry k of row p
    the hidden block, at (p, f)                       : hidden unit f of row p
    the stored block, at (p, c)                       : read-out c of row p

  A sum along a row is the lane reduction from zero; each layer is a product with the transpose of its weight matrix
  into a zero accumulator plus a bias row; the changes of float format are the identity on the extended reals.
  Nothing here needs an entry to be finite.
-/
import proofs.«171777_j73315091742880_2_alg».proof.Proof.Gen.KernelIdeal.Skeleton
import proofs.«171777_j73315091742880_2_alg».proof.Proof.LibKernelOps
import proofs.«171777_j73315091742880_2_alg».proof.Proof.LibKeepdimsCols
import proofs.«171777_j73315091742880_2_alg».proof.Proof.RowMap
import Idealize.ShloMosaic.Lib.ValueIdx
import Idealize.ShloMosaic.Lib.Pipeline.Value

noncomputable section

open scoped BigOperators

namespace Cert.KernelRows

open Idealize.ShloMosaic Idealize.ShloMosaic.ValueIdx Cert.KernelIdeal Cert.KernelIdeal.Gen Cert.RowMap

variable (x0 : Vec Ideal S704x256 .f32) (g s : Vec Ideal S256 .f32) (W : Vec Ideal S128x256 .bf16)
  (u : Vec Ideal S128 .f32) (R : Vec Ideal S10x128 .bf16) (v : Vec Ideal S10 .f32)

/-! ## The body's intermediate arrays -/

/-- The column [704, 1] of row averages. -/
def meanCol : FVec Ideal S704x1 .f32 :=
  divf (shapeCast S704x1 (multiReduction .add [1] S704 x0 0x00000000#32 reduces_S704x256_S704 (.inl rfl) rfl) shapeCasts_S704_S704x1)
    (broadcast S704x1 (Scalar.ofBits .f32 0x43800000#32 : Ideal .f32))

/-- The block less its row averages. -/
def centredBlk : FVec Ideal S704x256 .f32 :=
  subf x0 (broadcastTo S704x256 (meanCol x0) broadcasts_S704x1_S704x256)

/-- The column [704, 1] of reciprocal square roots of (row variance + eps). -/
def rstdCol : FVec Ideal S704x1 .f32 :=
  rsqrt (addf
    (divf (shapeCast S704x1 (multiReduction .add [1] S704 (mulf (centredBlk x0) (centredBlk x0)) 0x00000000#32 reduces_S704x256_S704 (.inl rfl) rfl) shapeCasts_S704_S704x1)
      (broadcast S704x1 (Scalar.ofBits .f32 0x43800000#32 : Ideal .f32)))
    (broadcast S704x1 (Scalar.ofBits .f32 0x3727C5AC#32 : Ideal .f32)))

/-- The normalised block, scaled by the gain row and moved by the shift row. -/
def normedBlk : FVec Ideal S704x256 .f32 :=
  addf (mulf (mulf (centredBlk x0) (broadcastTo S704x256 (rstdCol x0) broadcasts_S704x1_S704x256))
      (broadcastTo S704x256 (shapeCast S1x256 g shapeCasts_S256_S1x256) broadcasts_S1x256_S704x256))
    (broadcastTo S704x256 (shapeCast S1x256 s shapeCasts_S256_S1x256) broadcasts_S1x256_S704x256)

/-- The sigmoid layer's block [704, 128]. -/
def hiddenBlk : FVec Ideal S704x128 .f32 :=
  logistic (addf
    (matmul dot_S704x256_S128x256_S704x128_1_1_0_0_n_n none (truncf .bf16 (normedBlk x0 g s) bitsLt_bf16_f32)
      (shapeCast S128x256 W shapeCasts_S128x256_S128x256 : FVec Ideal S128x256 .bf16) (constant S704x128 .f32 0x00000000#32))
    (broadcastTo S704x128 (shapeCast S1x128 u shapeCasts_S128_S1x128) broadcasts_S1x128_S704x128))

/-- The stored block [704, 10]. -/
def readoutBlk : FVec Ideal S704x10 .f32 :=
  addf
    (matmul dot_S704x128_S10x128_S704x10_1_1_0_0_n_n none (truncf .bf16 (hiddenBlk x0 g s W u) bitsLt_bf16_f32)
      (shapeCast S10x128 R shapeCasts_S10x128_S10x128 : FVec Ideal S10x128 .bf16) (constant S704x10 .f32 0x00000000#32))
    (broadcastTo S704x10 (shapeCast S1x10 v shapeCasts_S10_S1x10) broadcasts_S1x10_S704x10)

/-- The body's stored value is the read-out block of its loads. -/
theorem pay_eq_readoutBlk : k0_pay1 (F := Ideal) x0 g s W u R v = readoutBlk x0 g s W u R v := rfl

/-! ## Each, read at an index -/

/-- Row p of the block. -/
abbrev rowOf (p : Fin 704) : Fin 256 → EReal := fun k => x0 (ix2 p k)

theorem meanCol_at (p : Fin 704) (q : Fin 1) : meanCol x0 (ix2 p q) = mean (rowOf x0 p) := by
  unfold meanCol mean
  refine (divf_apply _ _ _).trans ?_
  refine congrArg (Ideal.div · _) ?_
  refine (Cert.LibKeepdimsCols.shapeCast_a_a1_apply _ _ p q).trans ?_
  exact Cert.LibRowReduceProducts.rowSum_apply x0 _ _ _ p

theorem centredBlk_at (p : Fin 704) (k : Fin 256) : centredBlk x0 (ix2 p k) = centred (rowOf x0 p) k := by
  unfold centredBlk centred
  refine (subf_apply _ _ _).trans ?_
  refine congrArg (x0 (ix2 p k) - ·) ?_
  exact (Cert.LibKeepdimsCols.broadcastTo_a1_ab_apply _ _ p k).trans (meanCol_at x0 p 0)

theorem rstdCol_at (p : Fin 704) (q : Fin 1) :
    rstdCol x0 (ix2 p q) = Ideal.rsqrt (variance (rowOf x0 p) + eps) := by
  unfold rstdCol variance
  refine congrArg Ideal.rsqrt ?_
  refine (addf_apply _ _ _).trans ?_
  refine congrArg (· + eps) ?_
  refine (divf_apply _ _ _).trans ?_
  refine congrArg (Ideal.div · _) ?_
  refine (Cert.LibKeepdimsCols.shapeCast_a_a1_apply _ _ p q).trans ?_
  refine (Cert.LibRowReduceProducts.rowSum_apply _ _ _ _ p).trans ?_
  refine Finset.sum_congr rfl fun k _ => ?_
  refine (mulf_apply _ _ _).trans ?_
  rw [centredBlk_at]

theorem normedBlk_at (p : Fin 704) (k : Fin 256) :
    normedBlk x0 g s (ix2 p k) = normed (rowOf x0 p) (fun k => g (ix1 k)) (fun k => s (ix1 k)) k := by
  unfold normedBlk normed
  refine (addf_apply _ _ _).trans ?_
  refine congrArg₂ (· + ·) ?_ (Cert.LibKernelOps.rowBroadcast_apply s _ _ p k)
  refine (mulf_apply _ _ _).trans ?_
  refine congrArg₂ (· * ·) ?_ (Cert.LibKernelOps.rowBroadcast_apply g _ _ p k)
  refine (mulf_apply _ _ _).trans ?_
  refine congrArg₂ (· * ·) (centredBlk_at x0 p k) ?_
  exact (Cert.LibKeepdimsCols.broadcastTo_a1_ab_apply _ _ p k).trans (rstdCol_at x0 p 0)

theorem hiddenBlk_at (p : Fin 704) (f : Fin 128) :
    hiddenBlk x0 g s W u (ix2 p f)
      = hiddenUnit (rowOf x0 p) (fun k => g (ix1 k)) (fun k => s (ix1 k)) (fun f k => W (ix2 f k)) (fun f => u (ix1 f)) f := by
  unfold hiddenBlk hiddenUnit
  refine congrArg Ideal.logistic ?_
  refine (Cert.LibKernelOps.matmulNT_bias_apply dot_S704x256_S128x256_S704x128_1_1_0_0_n_n rfl rfl rfl rfl rfl rfl none _ _ u _ _ p f).trans ?_
  refine congrArg (· + u (ix1 f)) ?_
  refine Finset.sum_congr rfl fun k _ => ?_
  refine congrArg₂ (· * ·) ?_ ?_
  · exact normedBlk_at x0 g s p k
  · exact congrFun (shapeCast_self W _) (ix2 f k)

/-- Entry (p, c) of the stored block is read-out c of row p of the loaded block. -/
theorem readoutBlk_at (p : Fin 704) (c : Fin 10) :
    readoutBlk x0 g s W u R v (ix2 p c)
      = readout (rowOf x0 p) (fun k => g (ix1 k)) (fun k => s (ix1 k)) (fun f k => W (ix2 f k)) (fun f => u (ix1 f))
          (fun c f => R (ix2 c f)) (fun c => v (ix1 c)) c := by
  unfold readoutBlk readout
  refine (Cert.LibKernelOps.matmulNT_bias_apply dot_S704x128_S10x128_S704x10_1_1_0_0_n_n rfl rfl rfl rfl rfl rfl none _ _ v _ _ p c).trans ?_
  refine congrArg (· + v (ix1 c)) ?_
  refine Finset.sum_congr rfl fun f _ => ?_
  refine congrArg₂ (· * ·) ?_ ?_
  · exact hiddenBlk_at x0 g s W u p f
  · exact congrFun (shapeCast_self R _) (ix2 c f)

/-- The same of the body's stored value. -/
theorem pay_at (p : Fin 704) (c : Fin 10) :
    k0_pay1 (F := Ideal) x0 g s W u R v (ix2 p c)
      = readout (rowOf x0 p) (fun k => g (ix1 k)) (fun k => s (ix1 k)) (fun f k => W (ix2 f k)) (fun f => u (ix1 f))
          (fun c f => R (ix2 c f)) (fun c => v (ix1 c)) c :=
  (congrFun (pay_eq_readoutBlk x0 g s W u R v) _).trans (readoutBlk_at x0 g s W u R v p c)

end Cert.KernelRows

end
-- ==== Proof.KernelArray.lean ====
/-
  From the kernel's blocks to its whole output array.

  The grid has two points; point t loads rows 704 t .. 704 t + 703 of the [1408, 256] input and the whole gain, shift,
  weights and biases, and writes back rows 704 t .. 704 t + 703 of the [1408, 10] output. By KernelRows, entry (p, c)
  of what point t writes is read-out c of row 704 t + p of the input, so each written block is the restriction of ONE
  function of the whole arrays (rowsOut below): entry (r, c) is read-out c of row r. The two blocks cover all 1408 rows,
  hence after the region the output array is that function.

  The two weight matrices reach the region through a change of float format on the host, the identity on the
  extended reals.
-/
import proofs.«171777_j73315091742880_2_alg».proof.Proof.Gen.KernelIdeal.Frame
import proofs.«171777_j73315091742880_2_alg».proof.Proof.KernelRows
import Idealize.ShloMosaic.Lib.Pipeline.Value
import Idealize.ShloMosaic.Lib.StableHlo.Run

noncomputable section

namespace Cert.KernelArray

open Cert.KernelIdeal Cert.KernelIdeal.Gen Idealize.ShloMosaic Idealize.ShloMosaic.TcCoe Idealize.SL.Sem
open Idealize.ShloMosaic.ValueIdx Cert.RowMap
open Idealize.ShloMosaic.Pipeline (Dat)

/-- Entry (r, c) of the output: read-out c of row r of the input. -/
def rowsOut (X : S1408x256.Idx → EReal) (g s : S256.Idx → EReal) (W : S128x256.Idx → EReal) (u : S128.Idx → EReal)
    (R : S10x128.Idx → EReal) (v : S10.Idx → EReal) : S1408x10.Idx → EReal := fun j =>
  readout (fun k => X (ix2 (j 0) k)) (fun k => g (ix1 k)) (fun k => s (ix1 k)) (fun f k => W (ix2 f k))
    (fun f => u (ix1 f)) (fun c f => R (ix2 c f)) (fun c => v (ix1 c)) (j 1)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the two grid points: the input's row block moves with the output's, every other
    block index is zero, and the output's row block is 0 or 1. -/
theorem index_facts : ∀ t : Fin cfg0.N,
    win0_0.index t (0 : Fin 2) = win0_7.index t (0 : Fin 2) ∧ win0_0.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (1 : Fin 2) = 0 ∧ win0_7.index t (0 : Fin 2) ≤ 1 :=
  (by decide +kernel : ∀ t : Fin grid0.N, _)

/-- Each row block of the output is some point's. -/
theorem index_onto : ∀ q0 : Fin 2, ∃ t : Fin cfg0.N, win0_7.index t = ![q0.val, 0] :=
  (by decide +kernel : ∀ q0 : Fin 2, ∃ t : Fin grid0.N, win0_7.index t = ![q0.val, 0])

/-- What point t writes back is block t of rowsOut of the arrays as the region finds them. -/
theorem flushed_eq (c : Dev nD) (t : Fin cfg0.N) :
    (dats m 0 c).flushed 7 t = ((cfg0.win 7).blk t).view.read (Elt Ideal)
      (rowsOut (V m c main_arg0) (V m c main_arg1) (V m c main_arg2) (V m c main_v0) (V m c main_arg4) (V m c main_v1)
        (V m c main_arg6)) := by
  show (cfg0.win 7).cut (grid0.coords t) ((dats m 0 c).after 7 t) = _
  rw [after0_7]
  unfold out0_7
  rw [View.canon_unit_zero zeros2]
  simp only [View.ld_unit_zero (S := S704x256) zeros2, View.ld_unit_zero (S := S256) zeros1,
    View.ld_unit_zero (S := S128x256) zeros2, View.ld_unit_zero (S := S128) zeros1,
    View.ld_unit_zero (S := S10x128) zeros2, View.ld_unit_zero (S := S10) zeros1]
  obtain ⟨e00, e01, e1, e2, e30, e31, e4, e50, e51, e6, e71, e70⟩ := index_facts t
  funext j
  obtain ⟨p, q, rfl⟩ : ∃ (p : Fin 704) (q : Fin 10), j = ix2 p q := ⟨j 0, j 1, eq_ix2 j⟩
  refine (Cert.KernelRows.pay_at (iblk m c 0 t) (iblk m c 1 t) (iblk m c 2 t) (iblk m c 3 t) (iblk m c 4 t)
    (iblk m c 5 t) (iblk m c 6 t) p q).trans ?_
  show _ = rowsOut (V m c main_arg0) (V m c main_arg1) (V m c main_arg2) (V m c main_v0) (V m c main_arg4)
    (V m c main_v1) (V m c main_arg6) (((cfg0.win 7).blk t).view.emb (ix2 p q))
  unfold rowsOut
  refine readout_congr (fun k => ?_) (fun k => ?_) (fun k => ?_) (fun f k => ?_) (fun f => ?_) (fun c' f => ?_)
    (fun c' => ?_) ?_
  · show V m c main_arg0 (((cfg0.win 0).blk t).view.emb (ix2 p k)) = V m c main_arg0 (ix2 (((cfg0.win 7).blk t).view.emb (ix2 p q) 0) k)
    have h : ((cfg0.win 0).blk t).view.emb (ix2 p k) = ix2 (((cfg0.win 7).blk t).view.emb (ix2 p q) 0) k := by
      funext a; apply Fin.ext
      match a with
      | ⟨0, _⟩ => show win0_0.index t (0 : Fin 2) * 704 + 1 * p.val = win0_7.index t (0 : Fin 2) * 704 + 1 * p.val; omega
      | ⟨1, _⟩ => show win0_0.index t (1 : Fin 2) * 256 + 1 * k.val = k.val; omega
    rw [h]
    rfl
  · show V m c main_arg1 (((cfg0.win 1).blk t).view.emb (ix1 k)) = V m c main_arg1 (ix1 k)
    have h : ((cfg0.win 1).blk t).view.emb (ix1 k) = ix1 k := by
      funext a; apply Fin.ext
      match a with
      | ⟨0, _⟩ => show win0_1.index t (0 : Fin 1) * 256 + 1 * k.val = k.val; omega
    rw [h]
  · show V m c main_arg2 (((cfg0.win 2).blk t).view.emb (ix1 k)) = V m c main_arg2 (ix1 k)
    have h : ((cfg0.win 2).blk t).view.emb (ix1 k) = ix1 k := by
      funext a; apply Fin.ext
      match a with
      | ⟨0, _⟩ => show win0_2.index t (0 : Fin 1) * 256 + 1 * k.val = k.val; omega
    rw [h]
  · show V m c main_v0 (((cfg0.win 3).blk t).view.emb (ix2 f k)) = V m c main_v0 (ix2 f k)
    have h : ((cfg0.win 3).blk t).view.emb (ix2 f k) = ix2 f k := by
      funext a; apply Fin.ext
      match a with
      | ⟨0, _⟩ => show win0_3.index t (0 : Fin 2) * 128 + 1 * f.val = f.val; omega
      | ⟨1, _⟩ => show win0_3.index t (1 : Fin 2) * 256 + 1 * k.val = k.val; omega
    rw [h]
  · show V m c main_arg4 (((cfg0.win 4).blk t).view.emb (ix1 f)) = V m c main_arg4 (ix1 f)
    have h : ((cfg0.win 4).blk t).view.emb (ix1 f) = ix1 f := by
      funext a; apply Fin.ext
      match a with
      | ⟨0, _⟩ => show win0_4.index t (0 : Fin 1) * 128 + 1 * f.val = f.val; omega
    rw [h]
  · show V m c main_v1 (((cfg0.win 5).blk t).view.emb (ix2 c' f)) = V m c main_v1 (ix2 c' f)
    have h : ((cfg0.win 5).blk t).view.emb (ix2 c' f) = ix2 c' f := by
      funext a; apply Fin.ext
      match a with
      | ⟨0, _⟩ => show win0_5.index t (0 : Fin 2) * 10 + 1 * c'.val = c'.val; omega
      | ⟨1, _⟩ => show win0_5.index t (1 : Fin 2) * 128 + 1 * f.val = f.val; omega
    rw [h]
  · show V m c main_arg6 (((cfg0.win 6).blk t).view.emb (ix1 c')) = V m c main_arg6 (ix1 c')
    have h : ((cfg0.win 6).blk t).view.emb (ix1 c') = ix1 c' := by
      funext a; apply Fin.ext
      match a with
      | ⟨0, _⟩ => show win0_6.index t (0 : Fin 1) * 10 + 1 * c'.val = c'.val; omega
    rw [h]
  · apply Fin.ext
    show q.val = win0_7.index t (1 : Fin 2) * 10 + 1 * q.val
    omega

/-- An index of the output array is in point t's block iff each coordinate is in the block's range on its axis. -/
theorem mem_blk (t : Fin cfg0.N) (i : S1408x10.Idx) :
    i ∈ ((cfg0.win 7).blk t).view.set ↔ ∀ a : Fin 2, win0_7.index t a * S704x10.size a ≤ (i a).val ∧ (i a).val < win0_7.index t a * S704x10.size a + S704x10.size a := by
  show i ∈ ((View.whole main_v2).slice (win0_7.rect t)).set ↔ _
  rw [View.set_slice_whole, Rect.mem_set_unit]
  exact Iff.rfl

/-- Every entry of the output array is written by the point of its row block. -/
theorem covered (i : S1408x10.Idx) :
    ∃ t : Fin cfg0.N, (cfg0.win 7).flush t = true ∧ i ∈ ((cfg0.win 7).blk t).view.set := by
  have hi0 : (i 0).val < 1408 := (i 0).isLt
  have hi1 : (i 1).val < 10 := (i 1).isLt
  obtain ⟨t, ht⟩ := index_onto ⟨(i 0).val / 704, by omega⟩
  have q0 : win0_7.index t (0 : Fin 2) = (i 0).val / 704 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 704 ≤ (i 0).val ∧ (i 0).val < win0_7.index t (0 : Fin 2) * 704 + 704; omega
  | ⟨1, _⟩ => show win0_7.index t (1 : Fin 2) * 10 ≤ (i 1).val ∧ (i 1).val < win0_7.index t (1 : Fin 2) * 10 + 10; omega

/-- The first weight matrix as the region finds it: the argument, its float format changed on the host. -/
theorem weights1_entry (c : Dev nD) :
    (V m c main_v0 : S128x256.Idx → EReal) = (m ((c : Thread nD τ).loc main_arg3) : S128x256.Idx → EReal) := by
  show StableHlo.after hostOps0 (fun b => m (c, b)) (Proc.devRef .tc main_v0) = _
  after_results
  rfl

/-- The second weight matrix as the region finds it, likewise. -/
theorem weights2_entry (c : Dev nD) :
    (V m c main_v1 : S10x128.Idx → EReal) = (m ((c : Thread nD τ).loc main_arg5) : S10x128.Idx → EReal) := by
  show StableHlo.after hostOps0 (fun b => m (c, b)) (Proc.devRef .tc main_v1) = _
  after_results
  rfl

/-- THE OUTPUT ARRAY after the region: rowsOut of the seven arguments. -/
theorem final (c : Dev nD) :
    (dats m 0 c).arrAt 7 cfg0.N
      = rowsOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [(dats m 0 c).arrAt_eq_of_cover 7 _ (fun t _ => flushed_eq m c t) covered,
    weights1_entry, weights2_entry, V_main_arg0, V_main_arg1, V_main_arg2, V_main_arg4, V_main_arg6]

end Cert.KernelArray

end
-- ==== Proof.KernelRun.lean ====
/-
  The kernel's whole program: the region, then the host's reshape of its [1408, 10] array to [32, 4, 11, 10].

  After the region the array is rowsOut of the arguments (KernelArray); the reshape keeps the row-major order, so the
  program's result is that function viewed with four axes, and the seven arguments end as they were launched.
-/
import proofs.«171777_j73315091742880_2_alg».proof.Proof.KernelArray

noncomputable section

namespace Cert.KernelRun

open Cert.KernelIdeal Cert.KernelIdeal.Gen Idealize.ShloMosaic Idealize.ShloMosaic.TcCoe Idealize.SL.Sem
open Cert.KernelArray
open Idealize.ShloMosaic.Pipeline (Dat)

variable (m : (ℓ : Loc nD τ sig) → Buf (Elt Ideal) ℓ) (ρ : Dev nD → PrngReg)

/-- The program's result as a function of the seven arguments. -/
def result (c : Dev nD) : S32x4x11x10.Idx → EReal :=
  shapeCast S32x4x11x10
    (rowsOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)))
    shapeCasts_S1408x10_S32x4x11x10

/-- What the host's reshape leaves in the result buffer. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have hA := (Pipeline.withArrays_arr spec0 launch0.win.arr_inj c (V0 m c) (fun w => (dats m 0 c).arrAt w cfg0.N) 7).trans
    (final m c)
  funext i
  exact congrFun (congrArg (fun A => shapeCast S32x4x11x10 A shapeCasts_S1408x10_S32x4x11x10) hA) i

/-- The program's run: every weakly fair execution terminates with the result buffer at result and the seven
    arguments as launched. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.KernelRun

end
-- ==== Proof.RefRows.lean ====
/-
  The reference, read entry by entry.

  The reference views the [1408, 256] input as [32, 4, 11, 256]: entry (a, b, h, k) of the view is entry (r, k) of the
  input for the row r = (a * 4 + b) * 11 + h. Every later operation acts along the last axis only, so entry
  (a, b, h, c) of its result is read-out c (RowMap) of row r of the input.

  The sums along the last axis are the host's sums from zero, the two layers are the host's contractions of the
  last axis against the second axis of a weight matrix, and the logistic function arrives spelt out as
  1 / (1 + e^(-z)). Nothing here needs an entry to be finite.
-/
import proofs.«171777_j73315091742880_2_alg».proof.Proof.Gen.ReferenceIdeal.Read
import proofs.«171777_j73315091742880_2_alg».proof.Proof.RowMap
import Idealize.ShloMosaic.Lib.ValueIdx

noncomputable section

open scoped BigOperators

namespace Cert.RefRows

open Idealize.ShloMosaic Idealize.ShloMosaic.ValueIdx Cert.ReferenceIdeal Cert.ReferenceIdeal.Read Cert.RowMap

variable (X : (⟨S1408x256, .f32⟩ : BufTy).Contents (Elt Ideal)) (g s : (⟨S256, .f32⟩ : BufTy).Contents (Elt Ideal))
  (W : (⟨S128x256, .f32⟩ : BufTy).Contents (Elt Ideal)) (u : (⟨S128, .f32⟩ : BufTy).Contents (Elt Ideal))
  (R : (⟨S10x128, .f32⟩ : BufTy).Contents (Elt Ideal)) (v : (⟨S10, .f32⟩ : BufTy).Contents (Elt Ideal))

/-- The row of the flat input that entry (a, b, h, ·) of the four-axis view lies in. -/
abbrev rowIx (a : Fin 32) (b : Fin 4) (h : Fin 11) : Fin 1408 :=
  ⟨(a.val * 4 + b.val) * 11 + h.val, by have := a.isLt; have := b.isLt; have := h.isLt; omega⟩

/-- That row's 256 features. -/
abbrev rowAt (a : Fin 32) (b : Fin 4) (h : Fin 11) : Fin 256 → EReal := fun k => X (ix2 (rowIx a b h) k)

variable (a : Fin 32) (b : Fin 4) (h : Fin 11)

/-- The view. -/
theorem view_at (k : Fin 256) : val_main_v0 (F := Ideal) X (ix4 a b h k) = rowAt X a b h k := by
  refine (val_main_v0_apply X _).trans (congrArg X (funext fun d => Fin.ext ?_))
  have := a.isLt; have := b.isLt; have := h.isLt; have := k.isLt
  match d with
  | ⟨0, _⟩ => show (((a.val * 4 + b.val) * 11 + h.val) * 256 + k.val) / 256 = (a.val * 4 + b.val) * 11 + h.val; omega
  | ⟨1, _⟩ => show (((a.val * 4 + b.val) * 11 + h.val) * 256 + k.val) % 256 = k.val; omega

/-- The sum of a row. -/
theorem rowSum_at : val_main_v1 (F := Ideal) X (ix3 a b h) = ∑ k : Fin 256, rowAt X a b h k := by
  refine (val_main_v1_apply X _).trans ?_
  refine (congrArg (· + _) Ideal.ofBits_zero_f32).trans ((zero_add _).trans ?_)
  refine Finset.sum_congr rfl fun k _ => ?_
  refine (congrArg (val_main_v0 (F := Ideal) X) ?_).trans (view_at X a b h k)
  exact funext fun d => Fin.ext (by match d with | ⟨0, _⟩ => rfl | ⟨1, _⟩ => rfl | ⟨2, _⟩ => rfl | ⟨3, _⟩ => rfl)

/-- The average of a row, kept as a last axis of extent one. -/
theorem mean_at (q : Fin 1) : val_main_v4 (F := Ideal) X (ix4 a b h q) = mean (rowAt X a b h) := by
  show Ideal.div (val_main_v2 (F := Ideal) X (ix4 a b h q)) (val_main_v3 (F := Ideal) (ix4 a b h q)) = _
  unfold mean
  refine congrArg₂ Ideal.div ?_ ?_
  · refine (val_main_v2_apply X _).trans ((congrArg (val_main_v1 (F := Ideal) X) ?_).trans (rowSum_at X a b h))
    exact funext fun d => Fin.ext (by match d with | ⟨0, _⟩ => rfl | ⟨1, _⟩ => rfl | ⟨2, _⟩ => rfl)
  · exact val_main_v3_apply _

/-- The centred entries (the reference computes them twice, from the same average). -/
theorem centred_at (k : Fin 256) : val_main_v6 (F := Ideal) X (ix4 a b h k) = centred (rowAt X a b h) k := by
  show val_main_v0 (F := Ideal) X (ix4 a b h k) - val_main_v5 (F := Ideal) X (ix4 a b h k) = _
  unfold centred
  refine congrArg₂ (· - ·) (view_at X a b h k) ?_
  refine (val_main_v5_apply X _).trans ((congrArg (val_main_v4 (F := Ideal) X) ?_).trans (mean_at X a b h 0))
  exact funext fun d => Fin.ext (by match d with | ⟨0, _⟩ => rfl | ⟨1, _⟩ => rfl | ⟨2, _⟩ => rfl | ⟨3, _⟩ => rfl)

theorem centred_again_at (k : Fin 256) : val_main_v13 (F := Ideal) X (ix4 a b h k) = centred (rowAt X a b h) k := by
  show val_main_v0 (F := Ideal) X (ix4 a b h k) - val_main_v12 (F := Ideal) X (ix4 a b h k) = _
  unfold centred
  refine congrArg₂ (· - ·) (view_at X a b h k) ?_
  refine (val_main_v12_apply X _).trans ((congrArg (val_main_v4 (F := Ideal) X) ?_).trans (mean_at X a b h 0))
  exact funext fun d => Fin.ext (by match d with | ⟨0, _⟩ => rfl | ⟨1, _⟩ => rfl | ⟨2, _⟩ => rfl | ⟨3, _⟩ => rfl)

/-- The sum of the squares of the centred entries. -/
theorem sqSum_at : val_main_v8 (F := Ideal) X (ix3 a b h)
    = ∑ k : Fin 256, centred (rowAt X a b h) k * centred (rowAt X a b h) k := by
  refine (val_main_v8_apply X _).trans ?_
  refine (congrArg (· + _) Ideal.ofBits_zero_f32).trans ((zero_add _).trans ?_)
  refine Finset.sum_congr rfl fun k _ => ?_
  refine (congrArg (val_main_v7 (F := Ideal) X) (?_ : _ = ix4 a b h k)).trans ?_
  · exact funext fun d => Fin.ext (by match d with | ⟨0, _⟩ => rfl | ⟨1, _⟩ => rfl | ⟨2, _⟩ => rfl | ⟨3, _⟩ => rfl)
  · show val_main_v6 (F := Ideal) X (ix4 a b h k) * val_main_v6 (F := Ideal) X (ix4 a b h k) = _
    rw [centred_at]

/-- The variance of a row, kept as a last axis of extent one. -/
theorem variance_at (q : Fin 1) : val_main_v11 (F := Ideal) X (ix4 a b h q) = variance (rowAt X a b h) := by
  show Ideal.div (val_main_v9 (F := Ideal) X (ix4 a b h q)) (val_main_v10 (F := Ideal) (ix4 a b h q)) = _
  unfold variance
  refine congrArg₂ Ideal.div ?_ ?_
  · refine (val_main_v9_apply X _).trans ((congrArg (val_main_v8 (F := Ideal) X) ?_).trans (sqSum_at X a b h))
    exact funext fun d => Fin.ext (by match d with | ⟨0, _⟩ => rfl | ⟨1, _⟩ => rfl | ⟨2, _⟩ => rfl)
  · exact val_main_v10_apply _

/-- The reciprocal square root of (variance + eps). -/
theorem rstd_at (q : Fin 1) :
    val_main_v16 (F := Ideal) X (ix4 a b h q) = Ideal.rsqrt (variance (rowAt X a b h) + eps) := by
  show Ideal.rsqrt (val_main_v11 (F := Ideal) X (ix4 a b h q) + val_main_v14 (F := Ideal) (ix4 a b h q)) = _
  refine congrArg Ideal.rsqrt (congrArg₂ (· + ·) (variance_at X a b h q) ?_)
  exact val_main_v14_apply _

/-- The normalised, scaled and shifted entries. -/
theorem normed_at (k : Fin 256) :
    val_main_v24 (F := Ideal) X g s (ix4 a b h k)
      = normed (rowAt X a b h) (fun k => g (ix1 k)) (fun k => s (ix1 k)) k := by
  show val_main_v13 (F := Ideal) X (ix4 a b h k) * val_main_v17 (F := Ideal) X (ix4 a b h k)
      * val_main_v20 (F := Ideal) g (ix4 a b h k) + val_main_v23 (F := Ideal) s (ix4 a b h k) = _
  unfold normed
  refine congrArg₂ (· + ·) (congrArg₂ (· * ·) (congrArg₂ (· * ·) (centred_again_at X a b h k) ?_) ?_) ?_
  · refine (val_main_v17_apply X _).trans ((congrArg (val_main_v16 (F := Ideal) X) ?_).trans (rstd_at X a b h 0))
    exact funext fun d => Fin.ext (by match d with | ⟨0, _⟩ => rfl | ⟨1, _⟩ => rfl | ⟨2, _⟩ => rfl | ⟨3, _⟩ => rfl)
  · refine (val_main_v20_apply g _).trans ((val_main_v19_apply g _).trans (congrArg g ?_))
    exact funext fun d => Fin.ext (by match d with | ⟨0, _⟩ => rfl)
  · refine (val_main_v23_apply s _).trans ((val_main_v22_apply s _).trans (congrArg s ?_))
    exact funext fun d => Fin.ext (by match d with | ⟨0, _⟩ => rfl)

/-- What the logistic function is applied to: the first layer's inner product plus its bias. -/
theorem preact_at (f : Fin 128) :
    val_main_v28 (F := Ideal) X g s W u (ix4 a b h f)
      = (∑ k : Fin 256, normed (rowAt X a b h) (fun k => g (ix1 k)) (fun k => s (ix1 k)) k * W (ix2 f k)) + u (ix1 f) := by
  show val_main_v25 (F := Ideal) X g s W (ix4 a b h f) + val_main_v27 (F := Ideal) u (ix4 a b h f) = _
  refine congrArg₂ (· + ·) ?_ ?_
  · refine (val_main_v25_apply X g s W _).trans (Finset.sum_congr rfl fun k _ => congrArg₂ (· * ·) ?_ (congrArg W ?_))
    · refine (congrArg (val_main_v24 (F := Ideal) X g s) (?_ : _ = ix4 a b h k)).trans (normed_at X g s a b h k)
      exact funext fun d => Fin.ext (by match d with | ⟨0, _⟩ => rfl | ⟨1, _⟩ => rfl | ⟨2, _⟩ => rfl | ⟨3, _⟩ => rfl)
    · exact funext fun d => Fin.ext (by match d with | ⟨0, _⟩ => rfl | ⟨1, _⟩ => rfl)
  · refine (val_main_v27_apply u _).trans ((val_main_v26_apply u _).trans (congrArg u ?_))
    exact funext fun d => Fin.ext (by match d with | ⟨0, _⟩ => rfl)

/-- The hidden units: the host's 1 / (1 + e^(-z)) is the logistic function. -/
theorem hidden_at (f : Fin 128) :
    val_main_v34 (F := Ideal) X g s W u (ix4 a b h f)
      = hiddenUnit (rowAt X a b h) (fun k => g (ix1 k)) (fun k => s (ix1 k)) (fun f k => W (ix2 f k)) (fun f => u (ix1 f)) f := by
  show Ideal.div (val_main_v33 (F := Ideal) (ix4 a b h f))
      (val_main_v31 (F := Ideal) (ix4 a b h f) + Ideal.exp (-(val_main_v28 (F := Ideal) X g s W u (ix4 a b h f)))) = _
  unfold hiddenUnit
  rw [val_main_v33_apply, val_main_v31_apply, preact_at]
  exact logistic_spelt _

/-- Entry (a, b, h, c) of the reference's result is read-out c of row (a * 4 + b) * 11 + h of the input. -/
theorem result_at (c : Fin 10) :
    val_main_v38 (F := Ideal) X g s W u R v (ix4 a b h c)
      = readout (rowAt X a b h) (fun k => g (ix1 k)) (fun k => s (ix1 k)) (fun f k => W (ix2 f k)) (fun f => u (ix1 f))
          (fun c f => R (ix2 c f)) (fun c => v (ix1 c)) c := by
  show val_main_v35 (F := Ideal) X g s W u R (ix4 a b h c) + val_main_v37 (F := Ideal) v (ix4 a b h c) = _
  unfold readout
  refine congrArg₂ (· + ·) ?_ ?_
  · refine (val_main_v35_apply X g s W u R _).trans (Finset.sum_congr rfl fun f _ => congrArg₂ (· * ·) ?_ (congrArg R ?_))
    · refine (congrArg (val_main_v34 (F := Ideal) X g s W u) (?_ : _ = ix4 a b h f)).trans (hidden_at X g s W u a b h f)
      exact funext fun d => Fin.ext (by match d with | ⟨0, _⟩ => rfl | ⟨1, _⟩ => rfl | ⟨2, _⟩ => rfl | ⟨3, _⟩ => rfl)
    · exact funext fun d => Fin.ext (by match d with | ⟨0, _⟩ => rfl | ⟨1, _⟩ => rfl)
  · refine (val_main_v37_apply v _).trans ((val_main_v36_apply v _).trans (congrArg v ?_))
    exact funext fun d => Fin.ext (by match d with | ⟨0, _⟩ => rfl)

end Cert.RefRows

end
-- ==== Proof.Bridge.lean ====
/-
  The two results are one function.

  The kernel's result is rowsOut of the arguments, reshaped from [1408, 10] to [32, 4, 11, 10]; the reshape keeps the
  row-major order, so its entry (a, b, h, c) is entry (r, c) of rowsOut for r = (a * 4 + b) * 11 + h, that is, read-out
  c of row r of the input. The reference's entry (a, b, h, c) is the same read-out of the same row (RefRows).
-/
import proofs.«171777_j73315091742880_2_alg».proof.Proof.KernelArray
import proofs.«171777_j73315091742880_2_alg».proof.Proof.RefRows
import Idealize.ShloMosaic.Lib.Pipeline.Value
import Idealize.ShloMosaic.Lib.ValueIdx

noncomputable section

namespace Cert.Bridge

open Idealize.ShloMosaic Idealize.ShloMosaic.ValueIdx

/-- The reference's result is the kernel's whole-array function, reshaped. -/
theorem reference_eq_reshaped (X : Cert.KernelIdeal.S1408x256.Idx → EReal) (g s : Cert.KernelIdeal.S256.Idx → EReal)
    (W : Cert.KernelIdeal.S128x256.Idx → EReal) (u : Cert.KernelIdeal.S128.Idx → EReal)
    (R : Cert.KernelIdeal.S10x128.Idx → EReal) (v : Cert.KernelIdeal.S10.Idx → EReal)
    (hc : Cert.KernelIdeal.S1408x10.ShapeCasts Cert.KernelIdeal.S32x4x11x10) :
    Cert.ReferenceIdeal.Read.val_main_v38 (F := Ideal) X g s W u R v
      = shapeCast Cert.KernelIdeal.S32x4x11x10 (Cert.KernelArray.rowsOut X g s W u R v) hc := by
  funext i
  obtain ⟨a, b, h, c, rfl⟩ : ∃ (a : Fin 32) (b : Fin 4) (h : Fin 11) (c : Fin 10), i = ix4 a b h c :=
    ⟨i 0, i 1, i 2, i 3, eq_ix4 i⟩
  refine (Cert.RefRows.result_at X g s W u R v a b h c).trans (Eq.symm ?_)
  refine (shapeCast_apply _ hc (ix4 a b h c) (ix2 (Cert.RefRows.rowIx a b h) c) ?_).trans rfl
  rw [Shape.rowMajor_val_two, Shape.rowMajor_val_four]
  rfl

end Cert.Bridge

end
-- ==== Proof.lean ====
/-
  A row-wise network on 1408 rows of 256 features. Each row is normalised (its average removed, the result multiplied
  by the reciprocal square root of its variance plus a constant, then scaled by a gain and moved by a shift), passed
  through a sigmoid layer of 128 units and read out by a linear layer of 10 classes.

  The kernel works on the [1408, 256] input as two blocks of 704 rows and reshapes its [1408, 10] output to
  [32, 4, 11, 10]; the reference reshapes the input to [32, 4, 11, 256] first and works along the last axis. On the
  extended reals the two results agree entry by entry: entry (a, b, h, c) of either is read-out c (RowMap) of row
  (a * 4 + b) * 11 + h of the input.

    RowMap       the map applied to one row
    KernelRows   one block of the kernel, read entry by entry
    KernelArray  the kernel's output array after its two grid points
    KernelRun    the kernel's whole program, with the reshape on the host
    RefRows      the reference, read entry by entry
    Bridge       the reference's result is the kernel's, as functions of the seven arguments

  Both programs divide by the same word for 256 and add the same word for the constant, sum each row from zero, and
  form each layer as an inner product plus a bias; the kernel's logistic function is by definition the quotient
  1 / (1 + e^(-z)) the reference spells out; a change of float format is the identity. No step distributes a product
  over a sum or cancels, so the equality holds at every extended real and the precondition is not used for it.
-/
import proofs.«171777_j73315091742880_2_alg».proof.Defs
import proofs.«171777_j73315091742880_2_alg».proof.Proof.Gen.Kernel
import proofs.«171777_j73315091742880_2_alg».proof.Proof.Gen.Kernel.Skeleton
import proofs.«171777_j73315091742880_2_alg».proof.Proof.Gen.Kernel.Launch
import proofs.«171777_j73315091742880_2_alg».proof.Proof.Gen.Kernel.Points
import proofs.«171777_j73315091742880_2_alg».proof.Proof.Gen.Kernel.Frame
import proofs.«171777_j73315091742880_2_alg».proof.Proof.Gen.KernelIdeal
import proofs.«171777_j73315091742880_2_alg».proof.Proof.Gen.KernelIdeal.Skeleton
import proofs.«171777_j73315091742880_2_alg».proof.Proof.Gen.KernelIdeal.Launch
import proofs.«171777_j73315091742880_2_alg».proof.Proof.Gen.KernelIdeal.Points
import proofs.«171777_j73315091742880_2_alg».proof.Proof.Gen.KernelIdeal.Frame
import proofs.«171777_j73315091742880_2_alg».proof.Proof.Gen.ReferenceIdeal
import proofs.«171777_j73315091742880_2_alg».proof.Proof.Gen.ReferenceIdeal.Run
import proofs.«171777_j73315091742880_2_alg».proof.Proof.Gen.ReferenceIdeal.Read
import proofs.«171777_j73315091742880_2_alg».proof.Proof.Gen.Pre_finite_inputs
import proofs.«171777_j73315091742880_2_alg».proof.Proof.KernelRun
import proofs.«171777_j73315091742880_2_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel on the extended reals is the printed kernel's own text: no operation was rewritten. -/
theorem preserves : Cert.preserves_Kernel_KernelIdeal := trivial

/-- From memories that agree on the seven arguments, the kernel ends with its result buffer at the reshaped rowsOut of
    the arguments (KernelRun) and the reference with its result buffer at the same function (Bridge). -/
theorem algebraic : Cert.algebraic_KernelIdeal_ReferenceIdeal := by
  intro m ρ m' ρ' _ hagree
  refine ⟨fun c => Cert.KernelRun.result m c, Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2.1, (hagree c).2.2.1, (hagree c).2.2.2.1,
    (hagree c).2.2.2.2.1, (hagree c).2.2.2.2.2.1, (hagree c).2.2.2.2.2.2]
  exact Cert.Bridge.reference_eq_reshaped _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
